-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x512 : Shape := ⟨3, ![4, 4096, 512]⟩
abbrev S256x256 : Shape := ⟨2, ![256, 256]⟩
abbrev S256x512 : Shape := ⟨2, ![256, 512]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_arg5 : FVec F S256x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S4x4096x256 .f32) (main_arg1 : FVec F S4x4096x512 .f32) (main_arg2 : FVec F S256x256 .f32) (main_arg3 : FVec F S256x512 .f32) (main_arg4 : FVec F S256x512 .f32) (main_arg5 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_v13 main_v16
-- ==== Kernel.lean ====
abbrev S4x4096x256 : Shape := ⟨3, ![4, 4096, 256]⟩
abbrev S4x4096x512 : Shape := ⟨3, ![4, 4096, 512]⟩
abbrev S256x256 : Shape := ⟨2, ![256, 256]⟩
abbrev S256x512 : Shape := ⟨2, ![256, 512]⟩
abbrev S1x256x256 : Shape := ⟨3, ![1, 256, 256]⟩
abbrev S1x4096x512 : Shape := ⟨3, ![1, 4096, 512]⟩
abbrev S4096x256 : Shape := ⟨2, ![4096, 256]⟩
abbrev S4096x512 : Shape := ⟨2, ![4096, 512]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x256, .f32⟩
  | .hbm, ⟨1, _⟩ => ⟨S4x4096x512, .f32⟩
  | .hbm, ⟨2, _⟩ => ⟨S256x256, .f32⟩
  | .hbm, ⟨3, _⟩ => ⟨S256x512, .f32⟩
  | .hbm, ⟨4, _⟩ => ⟨S256x512, .f32⟩
  | .hbm, ⟨5, _⟩ => ⟨S256x256, .f32⟩
  | .hbm, ⟨6, _⟩ => ⟨S4x4096x256, .f32⟩
  | .local _ .vmem, ⟨0, _⟩ => ⟨S1x256x256, .f32⟩
  | .local _ .vmem, ⟨1, _⟩ => ⟨S1x256x256, .f32⟩
  | .local _ .vmem, ⟨2, _⟩ => ⟨S1x4096x512, .f32⟩
  | .local _ .vmem, ⟨3, _⟩ => ⟨S1x4096x512, .f32⟩
  | .local _ .vmem, ⟨4, _⟩ => ⟨S256x256, .f32⟩
  | .local _ .vmem, ⟨5, _⟩ => ⟨S256x512, .f32⟩
  | .local _ .vmem, ⟨6, _⟩ => ⟨S256x512, .f32⟩
  | .local _ .vmem, ⟨7, _⟩ => ⟨S256x256, .f32⟩
  | .local _ .vmem, ⟨8, _⟩ => ⟨S1x256x256, .f32⟩
  | .local _ .vmem, ⟨9, _⟩ => ⟨S1x256x256, .f32⟩
  | .local _ .vmem, ⟨10, _⟩ => ⟨S4096x256, .bf16⟩
  | .local _ .vmem, ⟨11, _⟩ => ⟨S4096x256, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  reduces_S256x4096_S256 : S256x4096.Reduces [1] S256
  shapeCasts_S256_S256x1 : S256.ShapeCasts S256x1
  broadcasts_S256x1_S256x4096 : S256x1.Broadcasts S256x4096
  shapeCasts_S256x256_S1x256x256 : S256x256.ShapeCasts S1x256x256
  dot_S4096x512_S256x512_S4096x256_1_1_0_0_n_n_wf : DotDims.WF S4096x512 S256x512 S4096x256 [1] [1] [0] [0] [] []
  dot_S256x256_S256x256_S256x256_1_1_0_0_n_n_wf : DotDims.WF S256x256 S256x256 S256x256 [1] [1] [0] [0] [] []
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x4096x256.size a
  hwx0_0 : ∀ i : grid0.Coords, EltTy.bits .f32 = 32 ∨ (Rect.block (s := S4x4096x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S4x4096x512.size a
  hwx0_1 : ∀ i : grid0.Coords, EltTy.bits .f32 = 32 ∨ (Rect.block (s := S4x4096x512) S1x4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S4x4096x256.size a
  hwx0_6 : ∀ i : grid0.Coords, EltTy.bits .f32 = 32 ∨ (Rect.block (s := S4x4096x256) S1x256x256.size (cc0_transform_6 i) (hinb0_6 i)).WholeWords (EltTy.packing .f32)

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4x4096x512 : Shape := ⟨3, ![4, 4096, 512]⟩
abbrev S256x256 : Shape := ⟨2, ![256, 256]⟩
abbrev S256x512 : Shape := ⟨2, ![256, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x512, .f32⟩
  | .hbm, ⟨2, _⟩ => ⟨S256x256, .f32⟩
  | .hbm, ⟨3, _⟩ => ⟨S256x512, .f32⟩
  | .hbm, ⟨4, _⟩ => ⟨S256x512, .f32⟩
  | .hbm, ⟨5, _⟩ => ⟨S256x256, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x256, .f32⟩
  | .hbm, ⟨28, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x512_S256x512_S4x4096x256_2_1_01_0_n_n_wf : DotDims.WF S4x4096x512 S256x512 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x512_S256x512_S4x4096x256_2_1_01_0_n_n : DotDims S4x4096x512 S256x512 S4x4096x256 where
  lhsContracting := [2]
  rhsContracting := [1]
  lhsNonContracting := [0, 1]
  rhsNonContracting := [0]
  lhsBatch := []
  rhsBatch := []
  wf := dot_S4x4096x512_S256x512_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Pieces.lean ====
/-
  What one run of the kernel body leaves behind, as values. The body runs in one of two ways. At a grid point that
  starts a batch entry it projects the batch entry's reference rows to keys and values, stores both whole into their
  scratch buffers, and then attends; at every other point it attends against what the scratch already holds. Each
  buffer ends with exactly one covering store, so its contents are that store's payload with every load read whole.
-/
import proofs.«173835_j5360119185484_2_alg».proof.Proof.Gen.KernelIdeal.Frame
import Idealize.ShloMosaic.Lib.Pipeline.Value
import Idealize.ShloMosaic.Lib.Tactic

noncomputable section

namespace Cert.KernelIdeal.Found

open Cert.KernelIdeal Cert.KernelIdeal.Gen Idealize.ShloMosaic Idealize.ShloMosaic.TcCoe Idealize.SL.Sem Idealize.ShloMosaic.Tactic

variable {F : FTy → Type} [FloatOps F]

/-- The zero offsets of a rank-2 rectangle that starts at the origin. -/
theorem hz2 : (![0, 0] : Fin 2 → Nat) = fun _ => 0 := funext fun a => by fin_cases a <;> rfl
/-- The zero offsets of a rank-3 rectangle that starts at the origin. -/
theorem hz3 : (![0, 0, 0] : Fin 3 → Nat) = fun _ => 0 := funext fun a => by fin_cases a <;> rfl

/-- At a grid point that starts a batch entry the body stores the freshly projected keys into their scratch:
    the one covering store's payload, of the reference-rows block and the key weights. -/
theorem keys_first (c : Dev nD) (i : grid0.Coords) (arg2 : Memref sig .tc .vmem S1x256x256 .f32) (harg2 : arg2.IsWhole) (arg3 : Memref sig .tc .vmem S1x4096x512 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S4096x256 .bf16) (harg9 : arg9.IsWhole) (arg10 : Memref sig .tc .vmem S4096x256 .bf16) (harg10 : arg10.IsWhole) (hc0 : cond0_0 i) (x0 : Vec F S1x256x256 .f32) (x1 : Vec F S1x4096x512 .f32) (x2 : Vec F S256x256 .f32) (x3 : Vec F S256x512 .f32) (x4 : Vec F S256x512 .f32) (x5 : Vec F S256x256 .f32) :
    sout0_A_0 c i arg2 harg2 arg3 harg3 arg4 harg4 arg5 harg5 arg6 harg6 arg7 harg7 arg8 harg8 arg9 harg9 arg10 harg10 hc0 x0 x1 x2 x3 x4 x5 = k0_pay3 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg3.read_unread, harg5.read_unread, View.ld_unit_zero (S := S1x4096x512) hz3,
    View.ld_unit_zero (S := S256x512) hz2]

/-- Likewise the freshly projected values, of the reference-rows block and the value weights. -/
theorem values_first (c : Dev nD) (i : grid0.Coords) (arg2 : Memref sig .tc .vmem S1x256x256 .f32) (harg2 : arg2.IsWhole) (arg3 : Memref sig .tc .vmem S1x4096x512 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S4096x256 .bf16) (harg9 : arg9.IsWhole) (arg10 : Memref sig .tc .vmem S4096x256 .bf16) (harg10 : arg10.IsWhole) (hc0 : cond0_0 i) (x0 : Vec F S1x256x256 .f32) (x1 : Vec F S1x4096x512 .f32) (x2 : Vec F S256x256 .f32) (x3 : Vec F S256x512 .f32) (x4 : Vec F S256x512 .f32) (x5 : Vec F S256x256 .f32) :
    sout0_A_1 c i arg2 harg2 arg3 harg3 arg4 harg4 arg5 harg5 arg6 harg6 arg7 harg7 arg8 harg8 arg9 harg9 arg10 harg10 hc0 x0 x1 x2 x3 x4 x5 = k0_pay4 x1 x4 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg3.read_unread, harg6.read_unread, View.ld_unit_zero (S := S1x4096x512) hz3,
    View.ld_unit_zero (S := S256x512) hz2]

/-- At such a point the output block is the attention of the input rows against the keys and values just stored
    (read back whole from their scratch). -/
theorem out_first (c : Dev nD) (i : grid0.Coords) (arg2 : Memref sig .tc .vmem S1x256x256 .f32) (harg2 : arg2.IsWhole) (arg3 : Memref sig .tc .vmem S1x4096x512 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S4096x256 .bf16) (harg9 : arg9.IsWhole) (arg10 : Memref sig .tc .vmem S4096x256 .bf16) (harg10 : arg10.IsWhole) (hc0 : cond0_0 i) (x0 : Vec F S1x256x256 .f32) (x1 : Vec F S1x4096x512 .f32) (x2 : Vec F S256x256 .f32) (x3 : Vec F S256x512 .f32) (x4 : Vec F S256x512 .f32) (x5 : Vec F S256x256 .f32) :
    out0_A_6 c i arg2 harg2 arg3 harg3 arg4 harg4 arg5 harg5 arg6 harg6 arg7 harg7 arg8 harg8 arg9 harg9 arg10 harg10 hc0 x0 x1 x2 x3 x4 x5 = k0_pay1 (k0_pay5 x0 x2 (k0_pay3 x1 x3) (k0_pay4 x1 x4) x5) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero (S := S1x256x256) hz3, View.readCov_unit_zero (S := S4096x256) _ hz2,
    View.readCov_unit_zero (S := S4096x256) _ hz2]
  simp only [View.readAt_eq_ld, harg2.read_unread, harg3.read_unread, harg4.read_unread, harg5.read_unread,
    harg6.read_unread, harg7.read_unread, View.ld_unit_zero (S := S1x4096x512) hz3,
    View.ld_unit_zero (S := S1x256x256) hz3, View.ld_unit_zero (S := S256x512) hz2, View.ld_unit_zero (S := S256x256) hz2]

/-- At every other point the keys' and values' scratch is left as found, and the output block is the attention of
    the input rows against what the scratch holds. -/
theorem out_later (c : Dev nD) (i : grid0.Coords) (arg2 : Memref sig .tc .vmem S1x256x256 .f32) (harg2 : arg2.IsWhole) (arg3 : Memref sig .tc .vmem S1x4096x512 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S4096x256 .bf16) (harg9 : arg9.IsWhole) (arg10 : Memref sig .tc .vmem S4096x256 .bf16) (harg10 : arg10.IsWhole) (hc0 : ¬cond0_0 i) (x0 : Vec F S1x256x256 .f32) (x1 : Vec F S1x4096x512 .f32) (x2 : Vec F S256x256 .f32) (x3 : Vec F S256x512 .f32) (x4 : Vec F S256x512 .f32) (x5 : Vec F S256x256 .f32) (xs0 xs1 : Vec F S4096x256 .bf16) :
    out0_B_6 c i arg2 harg2 arg3 harg3 arg4 harg4 arg5 harg5 arg6 harg6 arg7 harg7 arg8 harg8 arg9 harg9 arg10 harg10 hc0 x0 x1 x2 x3 x4 x5 xs0 xs1 = k0_pay1 (k0_pay5 x0 x2 xs0 xs1 x5) := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  sl_unfold_words
  rw [View.canon_unit_zero (S := S1x256x256) hz3]
  simp only [View.readAt_eq_ld, harg2.read_unread, harg4.read_unread, harg7.read_unread, harg9.read_unread,
    harg10.read_unread, View.ld_unit_zero (S := S1x256x256) hz3, View.ld_unit_zero (S := S256x256) hz2,
    View.ld_unit_zero (S := S4096x256) hz2]

end Cert.KernelIdeal.Found

end
-- ==== Proof.Spec.lean ====
/-
  Cross attention with its four bias-free linear projections, as one function of the argument arrays, index by
  index, over the extended reals.

  For a batch entry b, the queries are x[b] · Wqᵀ, the keys ref[b] · Wkᵀ and the values ref[b] · Wvᵀ (every weight is
  stored [out, in], so a projection contracts the LAST axis of both factors). Row n of the scores is
  (q[n] · K[m]) / 16 over the keys m; its softmax subtracts the row's maximum, exponentiates, and divides by the
  row's sum; the attended row is that softmax times V, and the output is the attended row times Woᵀ.
  So output row (b, n) depends on x only through row (b, n), and on ref only through batch entry b.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The value a row maximum starts from: −∞, as both programs spell it. -/
abbrev negInf : EReal := Ideal.ofBits .f32 0xFF800000#32

/-- The score scale 256^(−1/2) = 1/16, as both programs spell it. -/
abbrev scale : EReal := Ideal.ofBits .f32 0x3D800000#32

/-- The maximum a softmax subtracts from a row of scores: the fold of `max` over the row from −∞ (and once more
    against −∞, as the softmax is written). -/
def rowMax (d : Fin 4096 → EReal) : EReal := max negInf (Finset.univ.fold max negInf d)

/-- The exponentials of a row of scores shifted by the row's maximum. -/
def expRow (d : Fin 4096 → EReal) (m : Fin 4096) : EReal := Ideal.exp (d m - rowMax d)

/-- The softmax of a row of scores. -/
def softmax (d : Fin 4096 → EReal) (m : Fin 4096) : EReal := Ideal.div (expRow d m) (∑ k : Fin 4096, expRow d k)

/-- A bias-free projection of the reference rows by a weight stored [out, in]: (R · Wᵀ)(m, o) = ∑ r, R(m, r) · W(o, r). -/
def proj (R : Fin 4096 → Fin 512 → EReal) (W : Fin 256 → Fin 512 → EReal) (m : Fin 4096) (o : Fin 256) : EReal :=
  ∑ r : Fin 512, R m r * W o r

/-- The query row of one input row: q(e) = ∑ a, x(a) · Wq(e, a). -/
def query (xr : Fin 256 → EReal) (Wq : Fin 256 → Fin 256 → EReal) (e : Fin 256) : EReal :=
  ∑ a : Fin 256, xr a * Wq e a

/-- The scaled scores of one query row against every key: d(m) = (∑ e, q(e) · K(m, e)) / 16. -/
def scores (q : Fin 256 → EReal) (K : Fin 4096 → Fin 256 → EReal) (m : Fin 4096) : EReal :=
  (∑ e : Fin 256, q e * K m e) * scale

/-- The attended row: y(c) = ∑ m, softmax(d)(m) · V(m, c). -/
def attend (d : Fin 4096 → EReal) (V : Fin 4096 → Fin 256 → EReal) (c : Fin 256) : EReal :=
  ∑ m : Fin 4096, softmax d m * V m c

/-- One output row from one input row, the keys, the values and the two square weights:
    out(o) = ∑ c, y(c) · Wo(o, c) with y the attended row of the scores of the query row. -/
def attnRow (xr : Fin 256 → EReal) (Wq : Fin 256 → Fin 256 → EReal) (K V : Fin 4096 → Fin 256 → EReal)
    (Wo : Fin 256 → Fin 256 → EReal) (o : Fin 256) : EReal :=
  ∑ c : Fin 256, attend (scores (query xr Wq) K) V c * Wo o c

/-- An output row depends on its five inputs only through their entries. -/
theorem attnRow_congr {xr xr' : Fin 256 → EReal} {Wq Wq' : Fin 256 → Fin 256 → EReal} {K K' V V' : Fin 4096 → Fin 256 → EReal}
    {Wo Wo' : Fin 256 → Fin 256 → EReal} (h1 : ∀ a, xr a = xr' a) (h2 : ∀ e a, Wq e a = Wq' e a)
    (h3 : ∀ k e, K k e = K' k e) (h4 : ∀ k c, V k c = V' k c) (h5 : ∀ o c, Wo o c = Wo' o c) (o : Fin 256) :
    attnRow xr Wq K V Wo o = attnRow xr' Wq' K' V' Wo' o := by
  obtain rfl : xr = xr' := funext h1
  obtain rfl : Wq = Wq' := funext fun e => funext (h2 e)
  obtain rfl : K = K' := funext fun k => funext (h3 k)
  obtain rfl : V = V' := funext fun k => funext (h4 k)
  obtain rfl : Wo = Wo' := funext fun o => funext (h5 o)
  rfl

/-- The whole result array: entry (b, n, o) is the output row of input row (b, n) against the keys and values
    projected from batch entry b of the reference rows. -/
def attention (x : (⟨3, ![4, 4096, 256]⟩ : Shape).Idx → EReal) (ref : (⟨3, ![4, 4096, 512]⟩ : Shape).Idx → EReal)
    (Wq : (⟨2, ![256, 256]⟩ : Shape).Idx → EReal) (Wk Wv : (⟨2, ![256, 512]⟩ : Shape).Idx → EReal)
    (Wo : (⟨2, ![256, 256]⟩ : Shape).Idx → EReal) : (⟨3, ![4, 4096, 256]⟩ : Shape).Idx → EReal :=
  fun i => attnRow (fun a => x (ix3 (i 0) (i 1) a)) (fun e a => Wq (ix2 e a))
    (proj (fun m r => ref (ix3 (i 0) m r)) (fun o r => Wk (ix2 o r)))
    (proj (fun m r => ref (ix3 (i 0) m r)) (fun o r => Wv (ix2 o r)))
    (fun o c => Wo (ix2 o c)) (i 2)

end Cert.Attn

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibTransposedDot.lean ====
/-
  A matrix product with the right factor stored transposed, read at an index. For the dimension numbers that contract
  the second axis of an `M × K` array with the second axis of an `N × K` array and keep the two first axes in order
  (a linear layer whose weight is stored [out, in]; queries against keys), the `matmul` of the two arrays into a zero
  accumulator and their `dot_general` are, at the extended reals, the sum `∑ k, X (r, k) · W (c, k)`: the contraction
  shape has one axis of extent `K`, its indices are re-indexed by `Fin K`, and each operand index is read coordinate
  by coordinate.
-/
import Idealize.ShloMosaic.PureOps.Ideal
import Idealize.ShloMosaic.PureOps.Ideal.Laws
import Idealize.ShloMosaic.Lib.ValueIdx

noncomputable section

open scoped BigOperators

namespace Cert.Proof.TransposedDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction position: axis 1 of the left is the contracted one. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the output's column coordinate: axis 0 of the right is its one free axis. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction position: axis 1 of the right is the contracted one. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- At contraction position `k` the left operand is read at `(r, k)`. -/
theorem lhsIdx_transposed (i : (⟨2, ![M, N]⟩ : Shape).Idx) (k : Fin K) :
    (DotDims.transposedRhs M K N).lhsIdx i ((contrEquiv1 (DotDims.transposedRhs M K N) K rfl rfl).symm k) = ix2 (i 0) k := by
  have hk := contrEquiv1_symm_val (DotDims.transposedRhs M K N) K rfl rfl k
  funext a
  refine Fin.ext ?_
  match a with
  | ⟨0, _⟩ => exact lhs_row i _
  | ⟨1, _⟩ => exact (lhs_col i _).trans hk

/-- At contraction position `k` the right operand is read at `(c, k)`. -/
theorem rhsIdx_transposed (i : (⟨2, ![M, N]⟩ : Shape).Idx) (k : Fin K) :
    (DotDims.transposedRhs M K N).rhsIdx i ((contrEquiv1 (DotDims.transposedRhs M K N) K rfl rfl).symm k) = ix2 (i 1) k := by
  have hk := contrEquiv1_symm_val (DotDims.transposedRhs M K N) K rfl rfl k
  funext a
  refine Fin.ext ?_
  match a with
  | ⟨0, _⟩ => exact rhs_row i _
  | ⟨1, _⟩ => exact (rhs_col i _).trans hk

/-- The sum over the contraction shape's indices of the operands' products is the sum over `k : Fin K` of
    `X (r, k) · W (c, k)`. -/
theorem sum_contr_transposed {φ₁ φ₂ : FTy} (X : FVec Ideal ⟨2, ![M, K]⟩ φ₁) (W : FVec Ideal ⟨2, ![N, K]⟩ φ₂)
    (i : (⟨2, ![M, N]⟩ : Shape).Idx) :
    (∑ q : (DotDims.transposedRhs M K N).contr.Idx,
        X ((DotDims.transposedRhs M K N).lhsIdx i q) * W ((DotDims.transposedRhs M K N).rhsIdx i q))
      = ∑ k : Fin K, X (ix2 (i 0) k) * W (ix2 (i 1) k) := by
  rw [← Equiv.sum_comp (contrEquiv1 (DotDims.transposedRhs M K N) K rfl rfl).symm]
  refine Finset.sum_congr rfl fun k _ => ?_
  exact congrArg₂ (· * ·) (congrArg X (lhsIdx_transposed i k)) (congrArg W (rhsIdx_transposed i k))

/-- The `dot_general` with these dimension numbers, at the extended reals: entry `(r, c)` is
    `∑ k, X (r, k) · W (c, k)`, whatever the precision and the schedule key. -/
theorem dotGeneral_transposed {φ₁ φ₂ : FTy} (prec : Option ContractPrecision) (sched : HostSchedule)
    (X : FVec Ideal ⟨2, ![M, K]⟩ φ₁) (W : FVec Ideal ⟨2, ![N, K]⟩ φ₂) (i : (⟨2, ![M, N]⟩ : Shape).Idx) :
    FloatOps.dotGeneral (DotDims.transposedRhs M K N) prec sched X W i = ∑ k : Fin K, X (ix2 (i 0) k) * W (ix2 (i 1) k) := by
  rw [Ideal.dotGeneral_apply]
  exact sum_contr_transposed X W i

/-- The `matmul` with these dimension numbers into the zero accumulator, at the extended reals: entry `(r, c)` is
    `∑ k, X (r, k) · W (c, k)`. -/
theorem matmul_transposed_zero {φ₁ φ₂ : FTy} (prec : Option ContractPrecision)
    (X : FVec Ideal ⟨2, ![M, K]⟩ φ₁) (W : FVec Ideal ⟨2, ![N, K]⟩ φ₂) (i : (⟨2, ![M, N]⟩ : Shape).Idx) :
    FloatOps.matmul (DotDims.transposedRhs M K N) prec X W (constant ⟨2, ![M, N]⟩ .f32 0x00000000#32) i
      = ∑ k : Fin K, X (ix2 (i 0) k) * W (ix2 (i 1) k) := by
  rw [Ideal.matmul_constant_zero_apply]
  exact sum_contr_transposed X W i

/-- The same for any record of these dimension numbers (a program's own record, whose well-formedness proof is its own). -/
theorem matmul_zero_of_eq {φ₁ φ₂ : FTy} (d : DotDims ⟨2, ![M, K]⟩ ⟨2, ![N, K]⟩ ⟨2, ![M, N]⟩)
    (hd : d = DotDims.transposedRhs M K N) (prec : Option ContractPrecision)
    (X : FVec Ideal ⟨2, ![M, K]⟩ φ₁) (W : FVec Ideal ⟨2, ![N, K]⟩ φ₂) (r : Fin M) (c : Fin N) :
    FloatOps.matmul d prec X W (constant ⟨2, ![M, N]⟩ .f32 0x00000000#32) (ix2 r c)
      = ∑ k : Fin K, X (ix2 r k) * W (ix2 c k) := by
  subst hd
  exact matmul_transposed_zero prec X W (ix2 r c)

end Cert.Proof.TransposedDot

end
-- ==== Proof.Payload.lean ====
/-
  The kernel body's arithmetic read at an index, over the extended reals, where a change of float format is the
  identity. The two scratch payloads are the key and value projections of the reference rows. The output payload is,
  row by row, the specification's output row: the query projection of the input row, its scaled scores against the
  stored keys, the softmax of that row of scores (lane maximum from −∞, shifted exponentials, their lane sum, the
  quotient), the softmax times the stored values, and the output projection.
-/
import proofs.«173835_j5360119185484_2_alg».proof.Proof.Gen.KernelIdeal.Skeleton
import proofs.«173835_j5360119185484_2_alg».proof.Proof.Spec
import proofs.«173835_j5360119185484_2_alg».proof.Proof.LibColumns
import proofs.«173835_j5360119185484_2_alg».proof.Proof.LibPlainDot
import proofs.«173835_j5360119185484_2_alg».proof.Proof.LibTransposedDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Cert.Attn Idealize.ShloMosaic Idealize.ShloMosaic.ValueIdx
open Cert.Proof.Columns Cert.Proof.PlainDot Cert.Proof.TransposedDot

/-- The key and value projections contract the last axis of both factors. -/
theorem dKV : dot_S4096x512_S256x512_S4096x256_1_1_0_0_n_n = DotDims.transposedRhs 4096 512 256 := rfl
/-- So do the query and output projections, -/
theorem dQ : dot_S256x256_S256x256_S256x256_1_1_0_0_n_n = DotDims.transposedRhs 256 256 256 := rfl
/-- and the scores (queries against keys). -/
theorem dS : dot_S256x256_S4096x256_S256x4096_1_1_0_0_n_n = DotDims.transposedRhs 256 256 4096 := rfl
/-- The attention weights times the values is a plain matrix product. -/
theorem dY : dot_S256x4096_S4096x256_S256x256_1_0_0_1_n_n = DotDims.plain 256 4096 256 := rfl

/-- The stored keys: entry (m, o) is the projection of reference row m by key-weight row o. -/
theorem keys_apply (x1 : Vec Ideal S1x4096x512 .f32) (x3 : Vec Ideal S256x512 .f32) (m : Fin 4096) (o : Fin 256) :
    k0_pay3 (F := Ideal) x1 x3 (ix2 m o) = proj (fun m r => x1 (ix3 (0 : Fin 1) m r)) (fun o r => x3 (ix2 o r)) m o := by
  unfold k0_pay3 k0_pay2 proj
  dsimp only
  refine (congrFun (shapeCast_self _ shapeCasts_S4096x256_S4096x256) (ix2 m o)).trans ?_
  refine (matmul_zero_of_eq _ dKV none _ _ m o).trans ?_
  refine Finset.sum_congr rfl fun r _ => ?_
  exact congrArg (· * x3 (ix2 o r)) (shapeCast_1ab_ab_apply x1 _ m r)

/-- The stored values: entry (m, o) is the projection of reference row m by value-weight row o. -/
theorem values_apply (x1 : Vec Ideal S1x4096x512 .f32) (x4 : Vec Ideal S256x512 .f32) (m : Fin 4096) (o : Fin 256) :
    k0_pay4 (F := Ideal) x1 x4 (ix2 m o) = proj (fun m r => x1 (ix3 (0 : Fin 1) m r)) (fun o r => x4 (ix2 o r)) m o := by
  unfold k0_pay4 k0_pay2 proj
  dsimp only
  refine (congrFun (shapeCast_self _ shapeCasts_S4096x256_S4096x256) (ix2 m o)).trans ?_
  refine (matmul_zero_of_eq _ dKV none _ _ m o).trans ?_
  refine Finset.sum_congr rfl fun r _ => ?_
  exact congrArg (· * x4 (ix2 o r)) (shapeCast_1ab_ab_apply x1 _ m r)

/-- A plain matrix product into the zero accumulator for any record of the plain dimension numbers. -/
theorem matmul_plain_zero_of_eq {M K N : Nat} {φ₁ φ₂ : FTy} (d : DotDims ⟨2, ![M, K]⟩ ⟨2, ![K, N]⟩ ⟨2, ![M, N]⟩)
    (hd : d = DotDims.plain M K N) (prec : Option ContractPrecision)
    (X : FVec Ideal ⟨2, ![M, K]⟩ φ₁) (W : FVec Ideal ⟨2, ![K, N]⟩ φ₂) (r : Fin M) (c : Fin N) :
    FloatOps.matmul d prec X W (constant ⟨2, ![M, N]⟩ .f32 0x00000000#32) (ix2 r c)
      = ∑ k : Fin K, X (ix2 r k) * W (ix2 k c) := by
  subst hd
  exact matmul_plain_zero prec X W (ix2 r c)

/-- A per-row quantity given a unit second axis and spread back over the 4096 lanes reads, at (p, m), the quantity of
    row p. -/
theorem spread_apply (v : FVec Ideal S256 .f32) (p : Fin 256) (m : Fin 4096) :
    broadcastTo S256x4096 (shapeCast S256x1 v shapeCasts_S256_S256x1) broadcasts_S256x1_S256x4096 (ix2 p m) = v (ix1 p) :=
  (broadcastTo_a1_ab_apply _ broadcasts_S256x1_S256x4096 p m).trans (shapeCast_a_a1_apply v shapeCasts_S256_S256x1 p 0)

/-- The larger of a splat and a per-row quantity, read at row p. -/
theorem max_splat_apply (c : Ideal .f32) (v : FVec Ideal S256 .f32) (p : Fin 256) :
    maximumf (broadcast S256 c) v (ix1 p) = max c (v (ix1 p)) := rfl

/-- The exponential of a difference of two score-shaped arrays, read at (p, m). -/
theorem exp_sub_apply (d b : FVec Ideal S256x4096 .f32) (p : Fin 256) (m : Fin 4096) :
    exp (subf d b) (ix2 p m) = Ideal.exp (d (ix2 p m) - b (ix2 p m)) := rfl

/-- The lane maximum of row p of a score matrix, from −∞, is the fold of `max` over the row. -/
theorem laneMax_apply (d : FVec Ideal S256x4096 .f32) (hφ : FKind.Formats .f32)
    (hacc : (0xFF800000#32 : BitVec 32) = FKind.maximumf.neutral .f32 hφ) (p : Fin 256) :
    multiReduction .maximumf [1] S256 d 0xFF800000#32 reduces_S256x4096_S256 hφ hacc (ix1 p)
      = Finset.univ.fold max negInf (fun k : Fin 4096 => d (ix2 p k)) := by
  refine (Ideal.multiReduction_maximumf_single d 0xFF800000#32 reduces_S256x4096_S256 hφ hacc (ix1 p)).trans ?_
  exact congrArg (Finset.univ.fold max negInf) (funext fun k => congrArg d (lift_rows reduces_S256x4096_S256 p k))

/-- The maximum the body subtracts from row p of a score matrix is the row's maximum as the specification takes it. -/
theorem rowMax_apply (d : FVec Ideal S256x4096 .f32) (hφ : FKind.Formats .f32)
    (hacc : (0xFF800000#32 : BitVec 32) = FKind.maximumf.neutral .f32 hφ) (p : Fin 256) :
    maximumf (broadcast S256 (FloatOps.ofBits (F := Ideal) .f32 0xFF800000#32))
        (multiReduction .maximumf [1] S256 d 0xFF800000#32 reduces_S256x4096_S256 hφ hacc) (ix1 p)
      = rowMax (fun k => d (ix2 p k)) := by
  unfold rowMax
  refine (max_splat_apply _ _ p).trans ?_
  exact congrArg (max negInf) (laneMax_apply d hφ hacc p)

/-- The shifted exponentials of row p of a score matrix. -/
theorem expRow_apply (d : FVec Ideal S256x4096 .f32) (hφ : FKind.Formats .f32)
    (hacc : (0xFF800000#32 : BitVec 32) = FKind.maximumf.neutral .f32 hφ) (p : Fin 256) (m : Fin 4096) :
    exp (subf d (broadcastTo S256x4096 (shapeCast S256x1
        (maximumf (broadcast S256 (FloatOps.ofBits (F := Ideal) .f32 0xFF800000#32))
          (multiReduction .maximumf [1] S256 d 0xFF800000#32 reduces_S256x4096_S256 hφ hacc))
        shapeCasts_S256_S256x1) broadcasts_S256x1_S256x4096)) (ix2 p m)
      = expRow (fun k => d (ix2 p k)) m := by
  unfold expRow
  refine (exp_sub_apply d _ p m).trans ?_
  exact congrArg (fun z => Ideal.exp (d (ix2 p m) - z)) ((spread_apply _ p m).trans (rowMax_apply d hφ hacc p))

/-- The body's softmax of a score matrix, read at (p, m), is the softmax of row p at m. -/
theorem softmax_apply (d : FVec Ideal S256x4096 .f32) (hφ : FKind.Formats .f32)
    (hmax : (0xFF800000#32 : BitVec 32) = FKind.maximumf.neutral .f32 hφ)
    (hadd : (0x00000000#32 : BitVec 32) = FKind.add.neutral .f32 hφ) (p : Fin 256) (m : Fin 4096) :
    divf
        (exp (subf d (broadcastTo S256x4096 (shapeCast S256x1
          (maximumf (broadcast S256 (FloatOps.ofBits (F := Ideal) .f32 0xFF800000#32))
            (multiReduction .maximumf [1] S256 d 0xFF800000#32 reduces_S256x4096_S256 hφ hmax))
          shapeCasts_S256_S256x1) broadcasts_S256x1_S256x4096)))
        (broadcastTo S256x4096 (shapeCast S256x1
          (multiReduction .add [1] S256
            (exp (subf d (broadcastTo S256x4096 (shapeCast S256x1
              (maximumf (broadcast S256 (FloatOps.ofBits (F := Ideal) .f32 0xFF800000#32))
                (multiReduction .maximumf [1] S256 d 0xFF800000#32 reduces_S256x4096_S256 hφ hmax))
              shapeCasts_S256_S256x1) broadcasts_S256x1_S256x4096)))
            0x00000000#32 reduces_S256x4096_S256 hφ hadd)
          shapeCasts_S256_S256x1) broadcasts_S256x1_S256x4096) (ix2 p m)
      = softmax (fun k => d (ix2 p k)) m := by
  unfold softmax
  refine (divf_apply _ _ (ix2 p m)).trans ?_
  refine congrArg₂ Ideal.div (expRow_apply d hφ hmax p m) ?_
  refine (spread_apply _ p m).trans ?_
  refine (multiReduction_add_rows _ 0x00000000#32 reduces_S256x4096_S256 hφ hadd p).trans ?_
  exact Finset.sum_congr rfl fun k _ => expRow_apply d hφ hmax p k

/-- The attention of one block of 256 input rows against stored keys and values: entry (p, o) of the body's result
    is the specification's output row of input row p, at o. -/
theorem attn_apply (x0 : Vec Ideal S1x256x256 .f32) (x2 : Vec Ideal S256x256 .f32) (kk vv : Vec Ideal S4096x256 .bf16)
    (x5 : Vec Ideal S256x256 .f32) (p o : Fin 256) :
    k0_pay5 (F := Ideal) x0 x2 kk vv x5 (ix2 p o)
      = attnRow (fun a => x0 (ix3 (0 : Fin 1) p a)) (fun e a => x2 (ix2 e a)) (fun m e => kk (ix2 m e))
          (fun m c => vv (ix2 m c)) (fun o c => x5 (ix2 o c)) o := by
  unfold k0_pay5 attnRow attend
  dsimp only
  refine (matmul_zero_of_eq (φ₁ := .bf16) (φ₂ := .bf16) _ dQ none _ _ p o).trans ?_
  refine Finset.sum_congr rfl fun c _ => ?_
  refine congrArg (· * x5 (ix2 o c)) ?_
  refine (matmul_plain_zero_of_eq (φ₁ := .bf16) (φ₂ := .bf16) _ dY none _ _ p c).trans ?_
  refine Finset.sum_congr rfl fun m _ => ?_
  refine congrArg (· * vv (ix2 m c)) ?_
  refine (softmax_apply _ _ _ _ p m).trans ?_
  refine congrArg (fun d => softmax d m) (funext fun k => ?_)
  unfold scores query
  refine (mulf_apply _ _ (ix2 p k)).trans ?_
  refine congrArg₂ (· * ·) ?_ rfl
  refine (matmul_zero_of_eq (φ₁ := .bf16) (φ₂ := .bf16) _ dS none _ _ p k).trans ?_
  refine Finset.sum_congr rfl fun e _ => ?_
  refine congrArg (· * kk (ix2 k e)) ?_
  refine (matmul_zero_of_eq (φ₁ := .bf16) (φ₂ := .bf16) _ dQ none _ _ p e).trans ?_
  refine Finset.sum_congr rfl fun a _ => ?_
  exact congrArg (· * x2 (ix2 e a)) (shapeCast_1ab_ab_apply x0 _ p a)

end Cert.KernelIdeal.Body

end
-- ==== Proof.Inputs.lean ====
/-
  What each input window's block holds at a grid point, entry by entry, in terms of the arrays as launched.
  The grid is 4 batch entries by 16 row blocks, walked row block fastest: point t is batch entry t / 16 and row block
  t % 16. A block's entry sits in its array at block index × block size + the entry's coordinate inside the block.
-/
import proofs.«173835_j5360119185484_2_alg».proof.Proof.Gen.KernelIdeal.Frame
import Idealize.ShloMosaic.Lib.ValueIdx

noncomputable section

namespace Cert.KernelIdeal.Inputs

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the 64 grid points: point t works on batch entry t / 16 and on row block
    t % 16 of the input rows and of the result; the reference rows' block is the whole batch entry; every weight's one
    block is the whole weight. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 16 ∧ win0_6.index t (1 : Fin 3) = t.val % 16 ∧ win0_6.index t (2 : Fin 3) = 0 :=
  (by decide +kernel : ∀ t : Fin grid0.N, _)

/-- Row p of the input-rows block at point t is row (t % 16) · 256 + p of batch entry t / 16. -/
theorem x_block (c : Dev nD) (t : Fin cfg0.N) (p a : Fin 256) (b : Fin 4) (n : Fin 4096)
    (hb : b.val = t.val / 16) (hn : n.val = t.val % 16 * 256 + p.val) :
    (iblk m c 0 t : Vec F S1x256x256 .f32) (ix3 (0 : Fin 1) p a) = m ((c : Thread nD τ).loc main_arg0) (ix3 b n a) := by
  obtain ⟨e0, e1, e2, -⟩ := idx_facts t
  show V m c main_arg0 (((cfg0.win 0).blk t).view.emb (ix3 (0 : Fin 1) p a)) = _
  refine congrArg (m ((c : Thread nD τ).loc main_arg0)) (funext fun d => Fin.ext ?_)
  match d with
  | ⟨0, _⟩ => show win0_0.index t (0 : Fin 3) * 1 + 1 * 0 = b.val; omega
  | ⟨1, _⟩ => show win0_0.index t (1 : Fin 3) * 256 + 1 * p.val = n.val; omega
  | ⟨2, _⟩ => show win0_0.index t (2 : Fin 3) * 256 + 1 * a.val = a.val; omega

/-- The reference-rows block at point t is the whole of batch entry t / 16. -/
theorem ref_block (c : Dev nD) (t : Fin cfg0.N) (k : Fin 4096) (r : Fin 512) (b : Fin 4) (hb : b.val = t.val / 16) :
    (iblk m c 1 t : Vec F S1x4096x512 .f32) (ix3 (0 : Fin 1) k r) = m ((c : Thread nD τ).loc main_arg1) (ix3 b k r) := by
  obtain ⟨-, -, -, e0, e1, e2, -⟩ := idx_facts t
  show V m c main_arg1 (((cfg0.win 1).blk t).view.emb (ix3 (0 : Fin 1) k r)) = _
  refine congrArg (m ((c : Thread nD τ).loc main_arg1)) (funext fun d => Fin.ext ?_)
  match d with
  | ⟨0, _⟩ => show win0_1.index t (0 : Fin 3) * 1 + 1 * 0 = b.val; omega
  | ⟨1, _⟩ => show win0_1.index t (1 : Fin 3) * 4096 + 1 * k.val = k.val; omega
  | ⟨2, _⟩ => show win0_1.index t (2 : Fin 3) * 512 + 1 * r.val = r.val; omega

/-- The query weight's block is the whole weight. -/
theorem wq_block (c : Dev nD) (t : Fin cfg0.N) (e a : Fin 256) :
    (iblk m c 2 t : Vec F S256x256 .f32) (ix2 e a) = m ((c : Thread nD τ).loc main_arg2) (ix2 e a) := by
  obtain ⟨-, -, -, -, -, -, e0, e1, -⟩ := idx_facts t
  show V m c main_arg2 (((cfg0.win 2).blk t).view.emb (ix2 e a)) = _
  refine congrArg (m ((c : Thread nD τ).loc main_arg2)) (funext fun d => Fin.ext ?_)
  match d with
  | ⟨0, _⟩ => show win0_2.index t (0 : Fin 2) * 256 + 1 * e.val = e.val; omega
  | ⟨1, _⟩ => show win0_2.index t (1 : Fin 2) * 256 + 1 * a.val = a.val; omega

/-- The key weight's block is the whole weight. -/
theorem wk_block (c : Dev nD) (t : Fin cfg0.N) (o : Fin 256) (r : Fin 512) :
    (iblk m c 3 t : Vec F S256x512 .f32) (ix2 o r) = m ((c : Thread nD τ).loc main_arg3) (ix2 o r) := by
  obtain ⟨-, -, -, -, -, -, -, -, e0, e1, -⟩ := idx_facts t
  show V m c main_arg3 (((cfg0.win 3).blk t).view.emb (ix2 o r)) = _
  refine congrArg (m ((c : Thread nD τ).loc main_arg3)) (funext fun d => Fin.ext ?_)
  match d with
  | ⟨0, _⟩ => show win0_3.index t (0 : Fin 2) * 256 + 1 * o.val = o.val; omega
  | ⟨1, _⟩ => show win0_3.index t (1 : Fin 2) * 512 + 1 * r.val = r.val; omega

/-- The value weight's block is the whole weight. -/
theorem wv_block (c : Dev nD) (t : Fin cfg0.N) (o : Fin 256) (r : Fin 512) :
    (iblk m c 4 t : Vec F S256x512 .f32) (ix2 o r) = m ((c : Thread nD τ).loc main_arg4) (ix2 o r) := by
  obtain ⟨-, -, -, -, -, -, -, -, -, -, e0, e1, -⟩ := idx_facts t
  show V m c main_arg4 (((cfg0.win 4).blk t).view.emb (ix2 o r)) = _
  refine congrArg (m ((c : Thread nD τ).loc main_arg4)) (funext fun d => Fin.ext ?_)
  match d with
  | ⟨0, _⟩ => show win0_4.index t (0 : Fin 2) * 256 + 1 * o.val = o.val; omega
  | ⟨1, _⟩ => show win0_4.index t (1 : Fin 2) * 512 + 1 * r.val = r.val; omega

/-- The output weight's block is the whole weight. -/
theorem wo_block (c : Dev nD) (t : Fin cfg0.N) (o a : Fin 256) :
    (iblk m c 5 t : Vec F S256x256 .f32) (ix2 o a) = m ((c : Thread nD τ).loc main_arg5) (ix2 o a) := by
  obtain ⟨-, -, -, -, -, -, -, -, -, -, -, -, e0, e1, -⟩ := idx_facts t
  show V m c main_arg5 (((cfg0.win 5).blk t).view.emb (ix2 o a)) = _
  refine congrArg (m ((c : Thread nD τ).loc main_arg5)) (funext fun d => Fin.ext ?_)
  match d with
  | ⟨0, _⟩ => show win0_5.index t (0 : Fin 2) * 256 + 1 * o.val = o.val; omega
  | ⟨1, _⟩ => show win0_5.index t (1 : Fin 2) * 256 + 1 * a.val = a.val; omega

end Cert.KernelIdeal.Inputs

end
-- ==== Proof.PerPoint.lean ====
/-
  What the buffers hold after each grid point, over the extended reals, in terms of the arrays as launched.
  Point t belongs to batch entry t / 16. The keys and values of a batch entry are its reference rows projected by the
  key and the value weight. After every point the two scratch buffers hold the keys and values of the point's batch
  entry: its first point stores them, and each later point of the batch entry finds them as the point before left
  them. So at every point the result's staging buffer ends holding, in its row p, the specification's output row of
  input row (t % 16) · 256 + p of batch entry t / 16.
-/
import proofs.«173835_j5360119185484_2_alg».proof.Proof.Pieces
import proofs.«173835_j5360119185484_2_alg».proof.Proof.Payload
import proofs.«173835_j5360119185484_2_alg».proof.Proof.Inputs
import proofs.«173835_j5360119185484_2_alg».proof.Proof.Spec
import Idealize.ShloMosaic.Lib.ValueLayout

noncomputable section

open scoped BigOperators

namespace Cert.KernelIdeal.PerPoint

open Cert.KernelIdeal Cert.KernelIdeal.Gen Cert.Attn Idealize.ShloMosaic Idealize.ShloMosaic.TcCoe Idealize.SL.Sem
open Idealize.ShloMosaic.ValueIdx

variable (m : (ℓ : Loc nD τ sig) → Buf (Elt Ideal) ℓ)

/-- The keys of batch entry b: its reference rows projected by the key weight, from the arrays as launched. -/
def keysOf (c : Dev nD) (b : Fin 4) : Fin 4096 → Fin 256 → EReal :=
  proj (fun k r => m ((c : Thread nD τ).loc main_arg1) (ix3 b k r)) (fun o r => m ((c : Thread nD τ).loc main_arg3) (ix2 o r))

/-- The values of batch entry b: its reference rows projected by the value weight. -/
def valuesOf (c : Dev nD) (b : Fin 4) : Fin 4096 → Fin 256 → EReal :=
  proj (fun k r => m ((c : Thread nD τ).loc main_arg1) (ix3 b k r)) (fun o r => m ((c : Thread nD τ).loc main_arg4) (ix2 o r))

/-- At a point that starts a batch entry the keys' scratch is left at the payload of that point's blocks. -/
theorem keys_at_first (c : Dev nD) (n : ℕ) (h : n < cfg0.N) (h0 : n % 16 = 0) :
    (outsAt0 m c n h).2.1 = k0_pay3 (iblk m c 1 (⟨n, h⟩ : Fin cfg0.N)) (iblk m c 3 (⟨n, h⟩ : Fin cfg0.N)) := by
  rw [outsAt0_A m c (⟨n, h⟩ : Fin cfg0.N) h0]
  dsimp only
  exact Found.keys_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) scM0_1 (Memref.isWhole_whole _) ((hcond0_0 (⟨n, h⟩ : Fin cfg0.N)).mpr h0) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N))

/-- Likewise the values' scratch. -/
theorem values_at_first (c : Dev nD) (n : ℕ) (h : n < cfg0.N) (h0 : n % 16 = 0) :
    (outsAt0 m c n h).2.2 = k0_pay4 (iblk m c 1 (⟨n, h⟩ : Fin cfg0.N)) (iblk m c 4 (⟨n, h⟩ : Fin cfg0.N)) := by
  rw [outsAt0_A m c (⟨n, h⟩ : Fin cfg0.N) h0]
  dsimp only
  exact Found.values_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) scM0_1 (Memref.isWhole_whole _) ((hcond0_0 (⟨n, h⟩ : Fin cfg0.N)).mpr h0) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N))

/-- The freshly projected keys of a point of batch entry b are that batch entry's keys. -/
theorem fresh_keys (c : Dev nD) (t : Fin cfg0.N) (b : Fin 4) (hb : b.val = t.val / 16) (k : Fin 4096) (o : Fin 256) :
    k0_pay3 (F := Ideal) (iblk m c 1 t) (iblk m c 3 t) (ix2 k o) = keysOf m c b k o := by
  refine (Body.keys_apply (iblk m c 1 t) (iblk m c 3 t) k o).trans ?_
  exact Finset.sum_congr rfl fun r _ =>
    congrArg₂ (fun a b : EReal => a * b) (Inputs.ref_block m c t k r b hb) (Inputs.wk_block m c t o r)

/-- The freshly projected values of a point of batch entry b are that batch entry's values. -/
theorem fresh_values (c : Dev nD) (t : Fin cfg0.N) (b : Fin 4) (hb : b.val = t.val / 16) (k : Fin 4096) (o : Fin 256) :
    k0_pay4 (F := Ideal) (iblk m c 1 t) (iblk m c 4 t) (ix2 k o) = valuesOf m c b k o := by
  refine (Body.values_apply (iblk m c 1 t) (iblk m c 4 t) k o).trans ?_
  exact Finset.sum_congr rfl fun r _ =>
    congrArg₂ (fun a b : EReal => a * b) (Inputs.ref_block m c t k r b hb) (Inputs.wv_block m c t o r)

/-- At a point that starts a batch entry the scratch buffers hold that batch entry's keys and values. -/
theorem first_case (c : Dev nD) (n : ℕ) (h : n < cfg0.N) (h0 : n % 16 = 0) (b : Fin 4) (hb : b.val = n / 16)
    (k : Fin 4096) (o : Fin 256) :
    (outsAt0 m c n h).2.1 (ix2 k o) = keysOf m c b k o ∧ (outsAt0 m c n h).2.2 (ix2 k o) = valuesOf m c b k o :=
  ⟨(congrFun (keys_at_first m c n h h0) _).trans (fresh_keys m c ⟨n, h⟩ b hb k o),
    (congrFun (values_at_first m c n h h0) _).trans (fresh_values m c ⟨n, h⟩ b hb k o)⟩

/-- At every other point both scratch buffers are left as the point before left them. -/
theorem kept (c : Dev nD) (n : ℕ) (h : n < cfg0.N) (h0 : ¬n % 16 = 0) :
    (outsAt0 m c n h).2.1 = (outsAt0 m c (n - 1) (Nat.lt_of_le_of_lt (Nat.sub_le _ _) h)).2.1
    ∧ (outsAt0 m c n h).2.2 = (outsAt0 m c (n - 1) (Nat.lt_of_le_of_lt (Nat.sub_le _ _) h)).2.2 := by
  rw [outsAt0_B m c ⟨n, h⟩ h0]
  exact ⟨rfl, rfl⟩

/-- THE CARRIED SCRATCH: after grid point n the two scratch buffers hold the keys and the values of batch entry
    n / 16 — stored at the batch entry's first point, left untouched by its other fifteen, which belong to the same
    batch entry as the point before them. By induction on the point. -/
theorem carried (c : Dev nD) : ∀ (n : ℕ) (h : n < cfg0.N) (b : Fin 4), b.val = n / 16 → ∀ (k : Fin 4096) (o : Fin 256),
    (outsAt0 m c n h).2.1 (ix2 k o) = keysOf m c b k o ∧ (outsAt0 m c n h).2.2 (ix2 k o) = valuesOf m c b k o := by
  intro n
  induction n using Nat.strong_induction_on with
  | _ n ih =>
    intro h b hb k o
    by_cases h0 : n % 16 = 0
    · exact first_case m c n h h0 b hb k o
    · obtain ⟨e1, e2⟩ := kept m c n h h0
      have ihp := ih (n - 1) (by omega) (Nat.lt_of_le_of_lt (Nat.sub_le _ _) h) b (by omega) k o
      exact ⟨(congrFun e1 _).trans ihp.1, (congrFun e2 _).trans ihp.2⟩

/-- The output block of point t from stored keys and values that are batch entry b's: row p of the block is row
    (t % 16) · 256 + p of batch entry b of the specification. -/
theorem out_of (c : Dev nD) (t : Fin cfg0.N) (b : Fin 4) (hb : b.val = t.val / 16) (n : Fin 4096) (p o : Fin 256)
    (hn : n.val = t.val % 16 * 256 + p.val) (kk vv : Vec Ideal S4096x256 .bf16)
    (hk : ∀ k e, kk (ix2 k e) = keysOf m c b k e) (hv : ∀ k e, vv (ix2 k e) = valuesOf m c b k e) :
    k0_pay1 (F := Ideal) (k0_pay5 (iblk m c 0 t) (iblk m c 2 t) kk vv (iblk m c 5 t)) (ix3 (0 : Fin 1) p o)
      = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b n o) := by
  unfold k0_pay1
  refine (shapeCast_ab_1ab_apply _ shapeCasts_S256x256_S1x256x256 0 p o).trans ?_
  refine (Body.attn_apply (iblk m c 0 t) (iblk m c 2 t) kk vv (iblk m c 5 t) p o).trans ?_
  show _ = attnRow (fun a => (m ((c : Thread nD τ).loc main_arg0)) (ix3 b n a)) (fun e a => (m ((c : Thread nD τ).loc main_arg2)) (ix2 e a)) (keysOf m c b) (valuesOf m c b)
    (fun o c' => (m ((c : Thread nD τ).loc main_arg5)) (ix2 o c')) o
  exact attnRow_congr (fun a => Inputs.x_block m c t p a b n hb hn) (fun e a => Inputs.wq_block m c t e a) hk hv
    (fun o c' => Inputs.wo_block m c t o c') o

/-- What the result's staging buffer holds after point t: row p of it is row (t % 16) · 256 + p of batch entry t / 16
    of the specification — with the keys and values just stored at a batch entry's first point, carried otherwise. -/
theorem out_at (c : Dev nD) (t : Fin cfg0.N) (b : Fin 4) (hb : b.val = t.val / 16) (n : Fin 4096) (p o : Fin 256)
    (hn : n.val = t.val % 16 * 256 + p.val) :
    (outsAt0 m c t.val t.isLt).1 (ix3 (0 : Fin 1) p o) = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b n o) := by
  by_cases h0 : t.val % 16 = 0
  · rw [outsAt0_A m c t h0]
    dsimp only
    refine (congrFun (Found.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) _).trans ?_
    exact out_of m c t b hb n p o hn _ _ (fun k e => fresh_keys m c t b hb k e) (fun k e => fresh_values m c t b hb k e)
  · rw [outsAt0_B m c t h0]
    dsimp only
    refine (congrFun (Found.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2.1
      (outsAt0 m c (t.val - 1) (Nat.lt_of_le_of_lt (Nat.sub_le _ _) t.isLt)).2.2) _).trans ?_
    exact out_of m c t b hb n p o hn _ _
      (fun k e => (carried m c (t.val - 1) _ b (by omega) k e).1) (fun k e => (carried m c (t.val - 1) _ b (by omega) k e).2)

end Cert.KernelIdeal.PerPoint

end
-- ==== Proof.Whole.lean ====
/-
  From blocks to the array. Grid point t writes its 256 output rows back as rows (t % 16) · 256 … of batch entry
  t / 16 of the result; the 64 blocks tile the result array: index (b, n, o) lies in the block of point
  b · 16 + n / 256. Every block is the corresponding block of ONE function of the launched arrays, the specification,
  so the result array ends holding the specification.
-/
import proofs.«173835_j5360119185484_2_alg».proof.Proof.PerPoint
import proofs.«173835_j5360119185484_2_alg».proof.Proof.Gen.KernelIdeal.Value
import Idealize.ShloMosaic.Lib.Pipeline.Value

noncomputable section

namespace Cert.KernelIdeal.Whole

open Cert.KernelIdeal Cert.KernelIdeal.Gen Cert.Attn Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification of the arrays as launched, as contents of the result array. -/
abbrev result (c : Dev nD) : Buf (Elt Ideal) ((c : Thread nD τ).loc main_v0) :=
  attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point t writes back is block t of the specification. -/
theorem flushed_eq (c : Dev nD) (t : Fin cfg0.N) :
    (dats m 0 c).flushed 6 t = ((cfg0.win 6).blk t).view.read (Elt Ideal) (result m c) := by
  rw [Value.flushed6]
  refine funext fun (y : S1x256x256.Idx) => ?_
  obtain ⟨u, p, o, rfl⟩ : ∃ (u : Fin 1) (p o : Fin 256), y = ix3 u p o := ⟨y 0, y 1, y 2, eq_ix3 y⟩
  obtain rfl : u = 0 := Subsingleton.elim _ _
  have hN : t.val < 64 := lt_of_lt_of_eq t.isLt (show cfg0.N = 64 from N_0)
  have hp : p.val < 256 := p.isLt
  obtain ⟨-, -, -, -, -, -, -, -, -, -, -, -, -, -, e0, e1, e2⟩ := Inputs.idx_facts t
  show (outsAt0 m c t.val t.isLt).1 (ix3 (0 : Fin 1) p o)
    = result m c (((cfg0.win 6).blk t).view.emb (ix3 (0 : Fin 1) p o))
  have he : ((cfg0.win 6).blk t).view.emb (ix3 (0 : Fin 1) p o)
      = ix3 (⟨t.val / 16, by omega⟩ : Fin 4) (⟨t.val % 16 * 256 + p.val, by omega⟩ : Fin 4096) o := by
    funext d; apply Fin.ext
    match d with
    | ⟨0, _⟩ => show win0_6.index t (0 : Fin 3) * 1 + 1 * 0 = t.val / 16; omega
    | ⟨1, _⟩ => show win0_6.index t (1 : Fin 3) * 256 + 1 * p.val = t.val % 16 * 256 + p.val; omega
    | ⟨2, _⟩ => show win0_6.index t (2 : Fin 3) * 256 + 1 * o.val = o.val; omega
  rw [he]
  exact PerPoint.out_at m c t _ rfl _ p o rfl

/-- An index of the result array is in point t's block iff each coordinate is in the block's range on its axis. -/
theorem mem_blk (t : Fin cfg0.N) (i : S4x4096x256.Idx) :
    i ∈ ((cfg0.win 6).blk t).view.set ↔ ∀ a : Fin 3, win0_6.index t a * S1x256x256.size a ≤ (i a).val
      ∧ (i a).val < win0_6.index t a * S1x256x256.size a + S1x256x256.size a := by
  show i ∈ ((View.whole main_v0).slice (win0_6.rect t)).set ↔ _
  rw [View.set_slice_whole, Rect.mem_set_unit]
  exact Iff.rfl

/-- The result array after the run is the specification: the 64 blocks cover it. -/
theorem final (c : Dev nD) : (dats m 0 c).arrAt 6 cfg0.N = result m c :=
  (dats m 0 c).arrAt_eq_of_cover 6 (result m c) (fun t _ => flushed_eq m c t) fun i => by
    have h0 : (i 0).val < 4 := (i 0).isLt
    have h1 : (i 1).val < 4096 := (i 1).isLt
    have h2 : (i 2).val < 256 := (i 2).isLt
    have hN : cfg0.N = 64 := N_0
    obtain ⟨t, ht⟩ : ∃ t : Fin cfg0.N, t.val = (i 0).val * 16 + (i 1).val / 256 := ⟨⟨_, by omega⟩, rfl⟩
    obtain ⟨-, -, -, -, -, -, -, -, -, -, -, -, -, -, e0, e1, e2⟩ := Inputs.idx_facts t
    refine ⟨t, flush0_6 t, ?_⟩
    rw [mem_blk]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 256 ≤ (i 1).val ∧ (i 1).val < win0_6.index t (1 : Fin 3) * 256 + 256; omega
    | ⟨2, _⟩ => show win0_6.index t (2 : Fin 3) * 256 ≤ (i 2).val ∧ (i 2).val < win0_6.index t (2 : Fin 3) * 256 + 256; omega

/-- The kernel's run, read: the result array at the specification of the launched arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefSide.lean ====
/-
  The reference program's result, read one operation at a time over the extended reals, is the specification.
  Each stage is read at an index given by its coordinates: the three projections and the output projection are
  contractions of the last axes; the scores contract queries with keys and scale by 1/16; the row maximum is the fold
  of `max` over the keys from −∞; the softmax's quotient is by the sum of the shifted exponentials from 0.
-/
import proofs.«173835_j5360119185484_2_alg».proof.Proof.Gen.ReferenceIdeal.Read
import proofs.«173835_j5360119185484_2_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.Attn Idealize.ShloMosaic Idealize.ShloMosaic.ValueIdx

variable (x0 : (⟨S4x4096x256, .f32⟩ : BufTy).Contents (Elt Ideal)) (x1 : (⟨S4x4096x512, .f32⟩ : BufTy).Contents (Elt Ideal))
  (x2 : (⟨S256x256, .f32⟩ : BufTy).Contents (Elt Ideal)) (x3 x4 : (⟨S256x512, .f32⟩ : BufTy).Contents (Elt Ideal))
  (x5 : (⟨S256x256, .f32⟩ : BufTy).Contents (Elt Ideal))

/-- The queries: row (b, n) of the first projection is the query row of input row (b, n). -/
theorem query_apply (b : Fin 4) (n : Fin 4096) (e : Fin 256) :
    val_main_v0 (F := Ideal) x0 x2 (ix3 b n e) = query (fun a => x0 (ix3 b n a)) (fun e a => x2 (ix2 e a)) e := by
  rw [val_main_v0_apply]
  unfold query
  refine Finset.sum_congr rfl fun a _ => ?_
  have el : lidx_main_v0 (ix3 b n e) a = ix3 b n a := funext fun d => Fin.ext (by match d with | ⟨0, _⟩ => rfl | ⟨1, _⟩ => rfl | ⟨2, _⟩ => rfl)
  have er : ridx_main_v0 (ix3 b n e) a = ix2 e a := funext fun d => Fin.ext (by match d with | ⟨0, _⟩ => rfl | ⟨1, _⟩ => rfl)
  rw [el, er]

/-- The keys of batch entry b. -/
theorem keys_apply (b : Fin 4) (k : Fin 4096) (e : Fin 256) :
    val_main_v1 (F := Ideal) x1 x3 (ix3 b k e) = proj (fun k r => x1 (ix3 b k r)) (fun o r => x3 (ix2 o r)) k e := by
  rw [val_main_v1_apply]
  unfold proj
  refine Finset.sum_congr rfl fun r _ => ?_
  have el : lidx_main_v1 (ix3 b k e) r = ix3 b k r := funext fun d => Fin.ext (by match d with | ⟨0, _⟩ => rfl | ⟨1, _⟩ => rfl | ⟨2, _⟩ => rfl)
  have er : ridx_main_v1 (ix3 b k e) r = ix2 e r := funext fun d => Fin.ext (by match d with | ⟨0, _⟩ => rfl | ⟨1, _⟩ => rfl)
  rw [el, er]

/-- The values of batch entry b. -/
theorem values_apply (b : Fin 4) (k : Fin 4096) (e : Fin 256) :
    val_main_v2 (F := Ideal) x1 x4 (ix3 b k e) = proj (fun k r => x1 (ix3 b k r)) (fun o r => x4 (ix2 o r)) k e := by
  rw [val_main_v2_apply]
  unfold proj
  refine Finset.sum_congr rfl fun r _ => ?_
  have el : lidx_main_v2 (ix3 b k e) r = ix3 b k r := funext fun d => Fin.ext (by match d with | ⟨0, _⟩ => rfl | ⟨1, _⟩ => rfl | ⟨2, _⟩ => rfl)
  have er : ridx_main_v2 (ix3 b k e) r = ix2 e r := funext fun d => Fin.ext (by match d with | ⟨0, _⟩ => rfl | ⟨1, _⟩ => rfl)
  rw [el, er]

/-- The scaled scores of row (b, n) against key k. -/
theorem scores_apply (b : Fin 4) (n k : Fin 4096) :
    val_main_v5 (F := Ideal) x0 x1 x2 x3 (ix3 b n k)
      = scores (query (fun a => x0 (ix3 b n a)) (fun e a => x2 (ix2 e a)))
          (proj (fun k r => x1 (ix3 b k r)) (fun o r => x3 (ix2 o r))) k := by
  rw [val_main_v5_apply, val_main_v3_apply, val_main_v4_apply, val_main_cst_apply, Ideal.mulf_def, Ideal.ofBits_def]
  unfold scores
  refine congrArg (fun u : EReal => u * scale) (Finset.sum_congr rfl fun e _ => ?_)
  have el : lidx_main_v3 (ix3 b n k) e = ix3 b n e := funext fun d => Fin.ext (by match d with | ⟨0, _⟩ => rfl | ⟨1, _⟩ => rfl | ⟨2, _⟩ => rfl)
  have er : ridx_main_v3 (ix3 b n k) e = ix3 b k e := funext fun d => Fin.ext (by match d with | ⟨0, _⟩ => rfl | ⟨1, _⟩ => rfl | ⟨2, _⟩ => rfl)
  rw [el, er, query_apply, keys_apply]

/-- The maximum subtracted from row (b, n) of the scores is the row's maximum as the specification takes it. -/
theorem rowMax_apply (b : Fin 4) (n : Fin 4096) :
    val_main_v8 (F := Ideal) x0 x1 x2 x3 (ix2 b n) = rowMax (fun k => val_main_v5 (F := Ideal) x0 x1 x2 x3 (ix3 b n k)) := by
  rw [val_main_v8_apply, val_main_v7_apply, val_main_cst_1_apply, Ideal.maximumf_def, Ideal.ofBits_def]
  unfold rowMax
  refine congrArg (max negInf) ?_
  unfold val_main_v6
  refine (Host.reduce_eq_fold_single FloatOps.maximumf _ _ reducesTo_S4x4096x4096_S4x4096_d2 (by decide) h_S_ (ix2 b n)).trans ?_
  exact congrArg (Finset.univ.fold max negInf) (funext fun k =>
    congrArg (val_main_v5 (F := Ideal) x0 x1 x2 x3) (funext fun d => Fin.ext (by match d with | ⟨0, _⟩ => rfl | ⟨1, _⟩ => rfl | ⟨2, _⟩ => rfl)))

/-- The shifted exponentials of row (b, n) of the scores. -/
theorem expRow_apply (b : Fin 4) (n k : Fin 4096) :
    val_main_v12 (F := Ideal) x0 x1 x2 x3 (ix3 b n k)
      = expRow (fun k => val_main_v5 (F := Ideal) x0 x1 x2 x3 (ix3 b n k)) k := by
  rw [val_main_v12_apply, val_main_v11_apply, val_main_v10_apply, val_main_v9_apply, Ideal.hostUnary_exp_def, Ideal.subf_def]
  unfold expRow
  have e : idx_main_v9 (idx_main_v10 (ix3 b n k)) = ix2 b n := funext fun d => Fin.ext (by match d with | ⟨0, _⟩ => rfl | ⟨1, _⟩ => rfl)
  rw [e, rowMax_apply]

/-- Their sum over the keys, from 0. -/
theorem expSum_apply (b : Fin 4) (n : Fin 4096) :
    val_main_v13 (F := Ideal) x0 x1 x2 x3 (ix2 b n)
      = ∑ k : Fin 4096, expRow (fun k => val_main_v5 (F := Ideal) x0 x1 x2 x3 (ix3 b n k)) k := by
  rw [val_main_v13_apply, val_main_cst_2_apply, Ideal.ofBits_def, Ideal.ofBits_zero_f32, zero_add]
  refine Finset.sum_congr rfl fun k _ => ?_
  have e : idx_main_v13 (ix2 b n) k = ix3 b n k := funext fun d => Fin.ext (by match d with | ⟨0, _⟩ => rfl | ⟨1, _⟩ => rfl | ⟨2, _⟩ => rfl)
  rw [e, expRow_apply]

/-- The softmax of row (b, n) of the scores. -/
theorem softmax_apply (b : Fin 4) (n k : Fin 4096) :
    val_main_v16 (F := Ideal) x0 x1 x2 x3 (ix3 b n k)
      = softmax (fun k => val_main_v5 (F := Ideal) x0 x1 x2 x3 (ix3 b n k)) k := by
  rw [val_main_v16_apply, val_main_v15_apply, val_main_v14_apply, Ideal.hostDivf_def, expRow_apply]
  unfold softmax
  have e : idx_main_v14 (idx_main_v15 (ix3 b n k)) = ix2 b n := funext fun d => Fin.ext (by match d with | ⟨0, _⟩ => rfl | ⟨1, _⟩ => rfl)
  rw [e, expSum_apply]

/-- The attended row (b, n). -/
theorem attend_apply (b : Fin 4) (n : Fin 4096) (c : Fin 256) :
    val_main_v17 (F := Ideal) x0 x1 x2 x3 x4 (ix3 b n c)
      = attend (fun k => val_main_v5 (F := Ideal) x0 x1 x2 x3 (ix3 b n k))
          (proj (fun k r => x1 (ix3 b k r)) (fun o r => x4 (ix2 o r))) c := by
  rw [val_main_v17_apply]
  unfold attend
  refine Finset.sum_congr rfl fun k _ => ?_
  have el : lidx_main_v17 (ix3 b n c) k = ix3 b n k := funext fun d => Fin.ext (by match d with | ⟨0, _⟩ => rfl | ⟨1, _⟩ => rfl | ⟨2, _⟩ => rfl)
  have er : ridx_main_v17 (ix3 b n c) k = ix3 b k c := funext fun d => Fin.ext (by match d with | ⟨0, _⟩ => rfl | ⟨1, _⟩ => rfl | ⟨2, _⟩ => rfl)
  rw [el, er, softmax_apply, values_apply]

/-- Entry (b, n, o) of the reference's result is the specification's output row of input row (b, n), at o. -/
theorem out_apply (b : Fin 4) (n : Fin 4096) (o : Fin 256) :
    val_main_v18 (F := Ideal) x0 x1 x2 x3 x4 x5 (ix3 b n o)
      = attnRow (fun a => x0 (ix3 b n a)) (fun e a => x2 (ix2 e a))
          (proj (fun k r => x1 (ix3 b k r)) (fun o r => x3 (ix2 o r)))
          (proj (fun k r => x1 (ix3 b k r)) (fun o r => x4 (ix2 o r))) (fun o c => x5 (ix2 o c)) o := by
  rw [val_main_v18_apply]
  unfold attnRow
  refine Finset.sum_congr rfl fun c _ => ?_
  have el : lidx_main_v18 (ix3 b n o) c = ix3 b n c := funext fun d => Fin.ext (by match d with | ⟨0, _⟩ => rfl | ⟨1, _⟩ => rfl | ⟨2, _⟩ => rfl)
  have er : ridx_main_v18 (ix3 b n o) c = ix2 o c := funext fun d => Fin.ext (by match d with | ⟨0, _⟩ => rfl | ⟨1, _⟩ => rfl)
  have ed : (fun k => val_main_v5 (F := Ideal) x0 x1 x2 x3 (ix3 b n k))
      = scores (query (fun a => x0 (ix3 b n a)) (fun e a => x2 (ix2 e a)))
          (proj (fun k r => x1 (ix3 b k r)) (fun o r => x3 (ix2 o r))) := funext fun k => scores_apply x0 x1 x2 x3 b n k
  rw [el, er, attend_apply, ed]

/-- The reference's result array is the specification of its argument arrays. -/
theorem result_eq : val_main_v18 (F := Ideal) x0 x1 x2 x3 x4 x5 = attention x0 x1 x2 x3 x4 x5 := by
  funext i
  obtain ⟨b, n, o, rfl⟩ : ∃ (b : Fin 4) (n : Fin 4096) (o : Fin 256), i = ix3 b n o := ⟨i 0, i 1, i 2, eq_ix3 i⟩
  exact out_apply x0 x1 x2 x3 x4 x5 b n o

end Cert.ReferenceIdeal.RefValue

end
-- ==== Proof.lean ====
/-
  Cross attention with fused projections against its whole-array reference, over the extended reals.

  Both programs take input rows x [4, 4096, 256], reference rows ref [4, 4096, 512] and four weights stored
  [out, in]. For a batch entry b the queries are x[b] · Wqᵀ, the keys ref[b] · Wkᵀ, the values ref[b] · Wvᵀ; row n of the
  scores is (q[n] · K[m]) / 16 over the 4096 keys m; its softmax subtracts the row's maximum (a fold of max from −∞),
  exponentiates, and divides by the sum of the exponentials; the attended row is the softmax times V, and the output
  row is the attended row times Woᵀ. The kernel walks a grid of 4 batch entries by 16 blocks of 256 query rows: at a
  batch entry's first block it projects that batch entry's keys and values and keeps them in scratch; at every
  block it attends the block's 256 query rows against the scratch. It rounds its matrix factors to a narrower format,
  which over the extended reals is the identity, and the reference contracts whole arrays where the kernel contracts
  blocks: both end holding ONE function of the argument arrays, `Cert.Attn.attention`, index by index, the sums
  over the same index sets in the same form, so no law of the extended reals beyond reading each operation at an
  index is needed and the precondition is never opened.

  * The kernel's frames are the generated ones; the reference has no kernel, and its frame is its generated run with
    the result dropped.
  * The idealization rewrote no operation: `preserves` is `True`.
  * `algebraic`: the kernel's result array is the specification of the launched arrays (the scratch after point n
    holds batch entry n / 16's keys and values, by induction on the point; each block written back is a block of the
    specification; the 64 blocks tile the array), and the reference's result is the specification of arguments that
    agree.
-/
import proofs.«173835_j5360119185484_2_alg».proof.Defs
import proofs.«173835_j5360119185484_2_alg».proof.Proof.Gen.Kernel
import proofs.«173835_j5360119185484_2_alg».proof.Proof.Gen.Kernel.Skeleton
import proofs.«173835_j5360119185484_2_alg».proof.Proof.Gen.Kernel.Launch
import proofs.«173835_j5360119185484_2_alg».proof.Proof.Gen.Kernel.Points
import proofs.«173835_j5360119185484_2_alg».proof.Proof.Gen.Kernel.Frame
import proofs.«173835_j5360119185484_2_alg».proof.Proof.Gen.KernelIdeal
import proofs.«173835_j5360119185484_2_alg».proof.Proof.Gen.KernelIdeal.Skeleton
import proofs.«173835_j5360119185484_2_alg».proof.Proof.Gen.KernelIdeal.Launch
import proofs.«173835_j5360119185484_2_alg».proof.Proof.Gen.KernelIdeal.Points
import proofs.«173835_j5360119185484_2_alg».proof.Proof.Gen.KernelIdeal.Frame
import proofs.«173835_j5360119185484_2_alg».proof.Proof.Gen.ReferenceIdeal
import proofs.«173835_j5360119185484_2_alg».proof.Proof.Gen.Pre_finite_inputs
import proofs.«173835_j5360119185484_2_alg».proof.Proof.Gen.KernelIdeal.Value
import proofs.«173835_j5360119185484_2_alg».proof.Proof.Gen.ReferenceIdeal.Run
import proofs.«173835_j5360119185484_2_alg».proof.Proof.Gen.ReferenceIdeal.Read
import proofs.«173835_j5360119185484_2_alg».proof.Proof.Whole
import proofs.«173835_j5360119185484_2_alg».proof.Proof.RefSide
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Over the extended reals the kernel's result array ends at the specification of its launched arrays, and the
    reference's at the specification of arrays that agree with them. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
